-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x8192 : Shape := ⟨3, ![8, 1024, 8192]⟩
abbrev S8x1024 : Shape := ⟨2, ![8, 1024]⟩
abbrev S8x2 : Shape := ⟨2, ![8, 2]⟩
abbrev S_ : Shape := ⟨0, ![]⟩

class Facts : Prop where
  bcast_S_S8x1024x8192 : S_.BroadcastsInDim S8x1024x8192 (![] : Fin 0 → Fin S8x1024x8192.rank)
  reducesTo_S8x1024x8192_S_d0_1_2 : S8x1024x8192.ReducesTo [0, 1, 2] S_
  h_S_ : 0 < S_.numel
  bcast_S_S8x2 : S_.BroadcastsInDim S8x2 (![] : Fin 0 → Fin S8x2.rank)
  reducesTo_S8x2_S_d0_1 : S8x2.ReducesTo [0, 1] S_

variable [Facts]

def fn {F : FTy → Type} [FloatOps F] (main_arg0 : FVec F S8x1024x8192 .f32) (main_arg1 : IVec S8x1024 1) (main_arg2 : FVec F S8x2 .f32) : IVec S_ 1 :=
  let main_v0 : FVec F S8x1024x8192 .f32 := Host.absf main_arg0
  let main_cst : FVec F S_ .f32 := constant S_ .f32 0x7F800000#32
  let main_v1 : FVec F S8x1024x8192 .f32 := broadcastInDim S8x1024x8192 ![] bcast_S_S8x1024x8192 main_cst
  let main_v2 : IVec S8x1024x8192 1 := cmpf .olt main_v0 main_v1
  let main_c : IVec S_ 1 := constantI S_ 1 1#1
  let main_v3 : IVec S_ 1 := (fun x v => Host.reduce IntOp.andi x v reducesTo_S8x1024x8192_S_d0_1_2 h_S_) main_v2 main_c
  let main_v4 : FVec F S8x2 .f32 := Host.absf main_arg2
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  main_v8
-- ==== Kernel.lean ====
abbrev S8x1024x8192 : Shape := ⟨3, ![8, 1024, 8192]⟩
abbrev S8x1024 : Shape := ⟨2, ![8, 1024]⟩
abbrev S8x2 : Shape := ⟨2, ![8, 2]⟩
abbrev S2 : Shape := ⟨1, ![2]⟩
abbrev S1x2 : Shape := ⟨2, ![1, 2]⟩
abbrev S_ : Shape := ⟨0, ![]⟩
abbrev S8 : Shape := ⟨1, ![8]⟩
abbrev S8x1 : Shape := ⟨2, ![8, 1]⟩
abbrev S8x1024x1 : Shape := ⟨3, ![8, 1024, 1]⟩
abbrev S1x512x1 : Shape := ⟨3, ![1, 512, 1]⟩
abbrev S1x512x8192 : Shape := ⟨3, ![1, 512, 8192]⟩

abbrev nBuf : Space → Nat
  | .hbm => 29
  | .vmem => 4
  | .smem => 0
  | _ => 0

abbrev bufTy : (tb : Table) → Fin (tcTables nBuf tb) → BufTy
  | .hbm, ⟨0, _⟩ => ⟨S8x1024x8192, .f32⟩
  | .hbm, ⟨1, _⟩ => ⟨S8x1024, .i1⟩
  | .hbm, ⟨2, _⟩ => ⟨S8x2, .f32⟩
  | .hbm, ⟨3, _⟩ => ⟨S2, .f32⟩
  | .hbm, ⟨4, _⟩ => ⟨S1x2, .f32⟩
  | .hbm, ⟨5, _⟩ => ⟨S8x2, .f32⟩
  | .hbm, ⟨6, _⟩ => ⟨S8x2, .f32⟩
  | .hbm, ⟨7, _⟩ => ⟨S8x2, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024x1, .f32⟩
  | .hbm, ⟨28, _⟩ => ⟨S8x1024x8192, .f32⟩
  | .local _ .vmem, ⟨0, _⟩ => ⟨S1x512x1, .f32⟩
  | .local _ .vmem, ⟨1, _⟩ => ⟨S1x512x1, .f32⟩
  | .local _ .vmem, ⟨2, _⟩ => ⟨S1x512x8192, .f32⟩
  | .local _ .vmem, ⟨3, _⟩ => ⟨S1x512x8192, .f32⟩
  | _, _ => ⟨S8x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  reducesTo_S8x2_S8_d1 : S8x2.ReducesTo [1] S8
  h_S_ : 0 < S_.numel
  bcast_S_S8 : S_.BroadcastsInDim S8 (![] : Fin 0 → Fin S8.rank)
  reducesTo_S8_S_d0 : S8.ReducesTo [0] S_
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  broadcasts_S1x512x1_S1x512x8192 : S1x512x1.Broadcasts S1x512x8192
  inb_S1x512x8192_S1x512x8192_0_0_0 : ∀ a, (![0, 0, 0] : Fin 3 → Nat) a + S1x512x8192.size a ≤ S1x512x8192.size a
  h_S1x512x8192 : 0 < S1x512x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x1024x1.size a
  hwx0_0 : ∀ i : grid0.Coords, EltTy.bits .f32 = 32 ∨ (Rect.block (s := S8x1024x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8192.size a ≤ S8x1024x8192.size a
  hwx0_1 : ∀ i : grid0.Coords, EltTy.bits .f32 = 32 ∨ (Rect.block (s := S8x1024x8192) S1x512x8192.size (cc0_transform_1 i) (hinb0_1 i)).WholeWords (EltTy.packing .f32)

variable [Facts₀]

abbrev win0_0 : Pipeline.Window sig grid0 :=
  Pipeline.Window.ofSpec (Memref.whole main_v15) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x512x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1024x8192 : Shape := ⟨3, ![8, 1024, 8192]⟩
abbrev S8x1024 : Shape := ⟨2, ![8, 1024]⟩
abbrev S8x2 : Shape := ⟨2, ![8, 2]⟩
abbrev S2 : Shape := ⟨1, ![2]⟩
abbrev S_ : Shape := ⟨0, ![]⟩
abbrev S8 : Shape := ⟨1, ![8]⟩
abbrev S8x1024x1 : Shape := ⟨3, ![8, 1024, 1]⟩
abbrev S8x1x1 : Shape := ⟨3, ![8, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x1024x8192, .f32⟩
  | .hbm, ⟨1, _⟩ => ⟨S8x1024, .i1⟩
  | .hbm, ⟨2, _⟩ => ⟨S8x2, .f32⟩
  | .hbm, ⟨3, _⟩ => ⟨S2, .f32⟩
  | .hbm, ⟨4, _⟩ => ⟨S8x2, .f32⟩
  | .hbm, ⟨5, _⟩ => ⟨S8x2, .f32⟩
  | .hbm, ⟨6, _⟩ => ⟨S8x2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8x1024x1, .i1⟩
  | .hbm, ⟨22, _⟩ => ⟨S8x1x1, .f32⟩
  | .hbm, ⟨23, _⟩ => ⟨S_, .f32⟩
  | .hbm, ⟨24, _⟩ => ⟨S8x1024x1, .f32⟩
  | .hbm, ⟨25, _⟩ => ⟨S8x1024x1, .f32⟩
  | .hbm, ⟨26, _⟩ => ⟨S8x1024x1, .f32⟩
  | .hbm, ⟨27, _⟩ => ⟨S8x1024x8192, .f32⟩
  | _, _ => ⟨S8x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S2_S8x2_1 : S2.BroadcastsInDim S8x2 (![1] : Fin 1 → Fin S8x2.rank)
  reducesTo_S8x2_S_d0_1 : S8x2.ReducesTo [0, 1] S_
  h_S_ : 0 < S_.numel
  reducesTo_S8x2_S8_d1 : S8x2.ReducesTo [1] S8
  bcast_S_S8 : S_.BroadcastsInDim S8 (![] : Fin 0 → Fin S8.rank)
  bcast_S8x1024_S8x1024x1_0_1 : S8x1024.BroadcastsInDim S8x1024x1 (![0, 1] : Fin 2 → Fin S8x1024x1.rank)
  bcast_S8_S8x1x1_0 : S8.BroadcastsInDim S8x1x1 (![0] : Fin 1 → Fin S8x1x1.rank)
  bcast_S8x1x1_S8x1024x1_0_1_2 : S8x1x1.BroadcastsInDim S8x1024x1 (![0, 1, 2] : Fin 3 → Fin S8x1024x1.rank)
  bcast_S_S8x1024x1 : S_.BroadcastsInDim S8x1024x1 (![] : Fin 0 → Fin S8x1024x1.rank)
  bcast_S8x1024x1_S8x1024x8192_0_1_2 : S8x1024x1.BroadcastsInDim S8x1024x8192 (![0, 1, 2] : Fin 3 → Fin S8x1024x8192.rank)

variable [Facts₀]

class Facts : Prop extends Facts₀ where

variable [Facts]
-- ==== Proof.KernelHost.lean ====
/-
  What the host operations in front of the kernel's one region leave in the two buffers that matter: the LOSS, which
  is the program's first result and which nothing after it writes — the per-sample errors (each sample's two squared
  errors summed from zero, over 2) summed from zero, over 8 — and the ROW VALUES the region's input window stages: the
  centred per-sample error over the step, broadcast along the positions, selected against zero by the mask, with a
  unit column axis appended. Stated as terms of the host operations over the mask and the target array as launched.
-/
import proofs.«150426_j65455301591738_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The squared errors `(s − t)²`, the signature `s` given a unit row axis and broadcast down the samples. -/
def sqErrs (t : (⟨S8x2, .f32⟩ : BufTy).Contents (Elt F)) : (⟨S8x2, .f32⟩ : BufTy).Contents (Elt F) :=
  mulf (subf (broadcastInDim S8x2 ![0, 1] bcast_S1x2_S8x2_0_1 (broadcastInDim S1x2 ![1] bcast_S2_S1x2_1 (fun i => FloatOps.ofBits .f32 (lit0 (S2.rowMajor i))))) t)
    (subf (broadcastInDim S8x2 ![0, 1] bcast_S1x2_S8x2_0_1 (broadcastInDim S1x2 ![1] bcast_S2_S1x2_1 (fun i => FloatOps.ofBits .f32 (lit0 (S2.rowMajor i))))) t)

/-- The per-sample errors: each sample's two squared errors summed from zero, over 2. -/
def perSampleTerm (t : (⟨S8x2, .f32⟩ : BufTy).Contents (Elt F)) : (⟨S8, .f32⟩ : BufTy).Contents (Elt F) :=
  Host.divf (Host.reduceAdd (sqErrs t) (constant S_ .f32 0x00000000#32) reducesTo_S8x2_S8_d1 h_S_)
    (broadcastInDim S8 ![] bcast_S_S8 (constant S_ .f32 0x40000000#32))

/-- The loss: the eight per-sample errors summed from zero, over 8. -/
def lossTerm (t : (⟨S8x2, .f32⟩ : BufTy).Contents (Elt F)) : (⟨S_, .f32⟩ : BufTy).Contents (Elt F) :=
  Host.divf (Host.reduceAdd (perSampleTerm t) (constant S_ .f32 0x00000000#32) reducesTo_S8_S_d0 h_S_) (constant S_ .f32 0x41000000#32)

/-- The centred per-sample errors over the step. -/
def centredTerm (t : (⟨S8x2, .f32⟩ : BufTy).Contents (Elt F)) : (⟨S8, .f32⟩ : BufTy).Contents (Elt F) :=
  Host.divf (subf (perSampleTerm t) (broadcastInDim S8 ![] bcast_S_S8 (lossTerm t)))
    (broadcastInDim S8 ![] bcast_S_S8 (constant S_ .f32 0x3A83126F#32))

/-- The row values: the centred errors along the positions, against zero by the mask, a unit column axis appended. -/
def rowsTerm (mask : (⟨S8x1024, .i1⟩ : BufTy).Contents (Elt F)) (t : (⟨S8x2, .f32⟩ : BufTy).Contents (Elt F)) :
    (⟨S8x1024x1, .f32⟩ : BufTy).Contents (Elt F) :=
  broadcastInDim S8x1024x1 ![0, 1] bcast_S8x1024_S8x1024x1_0_1
    (select mask
      (broadcastInDim S8x1024 ![0, 1] bcast_S8x1_S8x1024_0_1 (broadcastInDim S8x1 ![0] bcast_S8_S8x1_0 (centredTerm t)))
      (broadcastInDim S8x1024 ![] bcast_S_S8x1024 (constant S_ .f32 0x00000000#32)))

variable (m : (ℓ : Loc nD τ sig) → Buf (Elt F) ℓ)

/-- When the region is entered the first result's buffer holds the loss term of the launched target array. -/
theorem V_loss (c : Dev nD) :
    (V m c main_v8 : (⟨S_, .f32⟩ : BufTy).Contents (Elt F)) = lossTerm (m ((c : Thread nD τ).loc main_arg2)) := by
  dsimp only [V]
  simp only [hostOps0, hostOps0_1, hostOps0_2, List.flatten_cons, List.flatten_nil, List.append_nil, List.cons_append,
    List.nil_append]
  after_results
  rfl

/-- When the region is entered the input window's array holds the row values of the launched mask and target array. -/
theorem V_rows (c : Dev nD) :
    (V m c main_v15 : (⟨S8x1024x1, .f32⟩ : BufTy).Contents (Elt F))
      = rowsTerm (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  rfl

end Cert.KernelIdeal.HostValue

end
-- ==== Proof.KernelBlocks.lean ====
/-
  From the kernel's blocks to its whole output array. The region runs on an 8 × 2 grid; at point `(b, h)` its input
  window stages the 512 row values of sample `b`'s half `h` (a block [1, 512, 1] of the row-value array [8, 1024, 1])
  and its body stores them broadcast along the 8192 columns into the output window's block [1, 512, 8192] at the same
  `(b, h)`. So every point writes back the matching block of ONE whole-array function: entry `(b, l, c)` of the output
  is the row value at `(b, l, 0)`, whatever `c`. The sixteen blocks tile the output array — the point covering row
  `l` of sample `b` is `(b, l / 512)` — hence after the run the array IS that function of the row values the region
  found; the first result's buffer, which no window stages, is as the region found it.
-/
import proofs.«150426_j65455301591738_2_alg».proof.Proof.Gen.KernelIdeal.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- Where output index `(b, l, c)` reads the row values: `(b, l, 0)`. -/
abbrev rowOf (i : S8x1024x8192.Idx) : S8x1024x1.Idx := fun a => match a with
  | ⟨0, _⟩ => ⟨(i 0).val, by have h : (i 0).val < 8 := (i 0).isLt; show (i 0).val < 8; omega⟩
  | ⟨1, _⟩ => ⟨(i 1).val, by have h : (i 1).val < 1024 := (i 1).isLt; show (i 1).val < 1024; omega⟩
  | ⟨2, _⟩ => ⟨0, by show 0 < 1; omega⟩

/-- The row values spread along the columns: the whole-array function the output ends holding. -/
abbrev spread (rows : S8x1024x1.Idx → Elt F .f32) : S8x1024x8192.Idx → Elt F .f32 := fun i => rows (rowOf i)

/-- The body's result at a block index, for any staged block: the block's row value under it. -/
theorem body_at (P : Vec F S1x512x1 .f32) (y : S1x512x8192.Idx) : out0_1 P y = P (Value.ix1_0 y) := by
  unfold out0_1
  rw [Value.canon1_eq]
  show (View.ld P r0_0) (Value.ix1_0 y) = P (Value.ix1_0 y)
  rw [View.ld_unit_zero (S := S1x512x1) zero_offsets]

/-- The two windows' index maps over the grid: the input block moves with the output block along the samples and the
    halves, and neither moves along the last axis. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every (sample, half) is some point's output block. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- WHAT POINT `t` WRITES BACK is block `t` of the row values spread along the columns. -/
theorem flushed_eq (c : Dev nD) (t : Fin cfg0.N) :
    (dats m 0 c).flushed 1 t = ((cfg0.win 1).blk t).view.read (Elt F) (spread (V m c main_v15)) := by
  rw [Value.flushed1]
  obtain ⟨e0, e1, e2, e3⟩ := idx_facts t
  funext y
  show out0_1 (iblk m c 0 t) y = V m c main_v15 (rowOf (((cfg0.win 1).blk t).view.emb y))
  refine (body_at (iblk m c 0 t) y).trans ?_
  show V m c main_v15 (((cfg0.win 0).blk t).view.emb (Value.ix1_0 y)) = V m c main_v15 (rowOf (((cfg0.win 1).blk t).view.emb y))
  refine congrArg (V m c main_v15) ?_
  funext a; apply Fin.ext
  match a with
  | ⟨0, _⟩ => show win0_0.index t (0 : Fin 3) * 1 + 1 * 0 = win0_1.index t (0 : Fin 3) * 1 + 1 * (y 0).val; have hy : (y 0).val < 1 := (y 0).isLt; omega
  | ⟨1, _⟩ => show win0_0.index t (1 : Fin 3) * 512 + 1 * (y 1).val = win0_1.index t (1 : Fin 3) * 512 + 1 * (y 1).val; omega
  | ⟨2, _⟩ => show win0_0.index t (2 : Fin 3) * 1 + 1 * 0 = 0; omega

/-- An index of the output array is in point `t`'s block iff each coordinate is in the block's range on its axis. -/
theorem mem_blk (t : Fin cfg0.N) (i : S8x1024x8192.Idx) :
    i ∈ ((cfg0.win 1).blk t).view.set ↔ ∀ a : Fin 3, win0_1.index t a * S1x512x8192.size a ≤ (i a).val ∧ (i a).val < win0_1.index t a * S1x512x8192.size a + S1x512x8192.size a := by
  show i ∈ ((View.whole main_v16).slice (win0_1.rect t)).set ↔ _
  rw [View.set_slice_whole, Rect.mem_set_unit]
  exact Iff.rfl

/-- THE COVER: every index of the output array is in the block of the point at its sample and its row's half. -/
theorem cover (i : S8x1024x8192.Idx) :
    ∃ t : Fin cfg0.N, (cfg0.win 1).flush t = true ∧ i ∈ ((cfg0.win 1).blk t).view.set := by
  have hi0 : (i 0).val < 8 := (i 0).isLt
  have hi1 : (i 1).val < 1024 := (i 1).isLt
  have hi2 : (i 2).val < 8192 := (i 2).isLt
  obtain ⟨t, ht⟩ := idx_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 8192 ≤ (i 2).val ∧ (i 2).val < win0_1.index t (2 : Fin 3) * 8192 + 8192; omega

/-- THE OUTPUT ARRAY after the run: the row values the region found, spread along the columns. -/
theorem final (c : Dev nD) : (dats m 0 c).arrAt 1 cfg0.N = spread (V m c main_v15) :=
  (dats m 0 c).arrAt_eq_of_cover 1 (spread (V m c main_v15)) (fun t _ => flushed_eq m c t) cover

/-- THE KERNEL PROGRAM'S RUN: it terminates with the first result's buffer as the region found it, the output array
    at the spread row values, and the arguments as launched. -/
theorem run : θ_run defs (onTc (τ := τ) (main (F := F))) ⟨m, fun _ => 0, ρ⟩ fun r => ∀ c : Dev nD,
      r.2.mem ((c : Thread nD τ).loc main_v8) = V m c main_v8
      ∧ r.2.mem ((c : Thread nD τ).loc main_v16) = spread (V m c main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2 main_v8 (Pipeline.mem_restRefs_of main_v8 (by decide) (by decide)),
      (Value.post1 m r h c).trans (final m c),
      Value.kept_main_arg0 m r h c,
      Value.kept_main_arg1 m r h c,
      Value.kept_main_arg2 m r h c⟩)
    (run_main m ρ)

end Cert.KernelIdeal.Blocks

end
-- ==== Proof.LossAlgebra.lean ====
/-
  The mathematics both programs compute, stated once over plain index types.

  With the constant signature `s = (1, 0)` and a target array `t : [8, 2]`, the squared error of sample `b` on
  component `j` is `e b j = (s j − t b j)²`; the per-sample error is the mean over the two components,
  `p b = (0 + Σ_j e b j) / 2`; the loss is the mean of the per-sample errors. One program takes that mean as written,
  `(0 + Σ_b p b) / 8`; the other takes the mean of all sixteen squared errors at once, `(0 + Σ_b Σ_j e b j) / 16`.
  The gradient entry at `(b, l, c)` is `(p b − loss) / ε` where the mask holds at `(b, l)` and `0` elsewhere, whatever
  the column `c`.

  The two losses are the same extended real for EVERY target array: each `e b j` is a square, so it is not negative,
  and on the extended reals that are not negative the product with a fixed factor distributes over sums; dividing by
  2 and then by 8 is multiplying by 1/2 and then by 1/8, that is by 1/16.
-/
import Idealize.ShloMosaic.PureOps.Ideal
import Idealize.ShloMosaic.PureOps.Ideal.Laws
import Idealize.ShloMosaic.Lib.ValueIdx

noncomputable section

open scoped BigOperators

namespace Cert.SignatureLoss

open Idealize.ShloMosaic Idealize.ShloMosaic.ValueIdx

/-! ## The divisors' patterns as reals -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `8.0` denotes the real 8. -/
theorem ofBits_eight : Ideal.ofBits .f32 0x41000000#32 = ((8 : ℝ) : EReal) := by
  simp [Ideal.ofBits, Ideal.ieee, -EReal.coe_mul]; norm_num

/-- The pattern of `16.0` denotes the real 16. -/
theorem ofBits_sixteen : Ideal.ofBits .f32 0x41800000#32 = ((16 : ℝ) : EReal) := by
  simp [Ideal.ofBits, Ideal.ieee, -EReal.coe_mul]; norm_num

/-! ## Squares and sums of extended reals that are not negative -/

/-- A square is not negative, at the infinities too (`⊥ · ⊥ = ⊤`). -/
theorem mul_self_nonneg' (x : EReal) : 0 ≤ x * x := by
  induction x using EReal.rec with
  | bot => simp
  | coe r => rw [← EReal.coe_mul]; exact_mod_cast mul_self_nonneg r
  | top => simp

/-- A fixed factor distributes over a finite sum of terms that are not negative. -/
theorem sum_mul_of_nonneg {ι : Type} (S : Finset ι) (f : ι → EReal) (hf : ∀ i, 0 ≤ f i) (c : EReal) :
    (∑ i ∈ S, f i) * c = ∑ i ∈ S, f i * c := by
  classical
  induction S using Finset.induction_on with
  | empty => simp
  | insert a S ha ih =>
    rw [Finset.sum_insert ha, Finset.sum_insert ha,
      EReal.right_distrib_of_nonneg (hf a) (Finset.sum_nonneg fun i _ => hf i), ih]

/-! ## The loss and the gradient -/

/-- The constant signature's two words: the patterns of `1.0` and `0.0`. -/
def sigWord : Fin 2 → BitVec 32 := fun
  | 0 => 0x3F800000#32
  | 1 => 0x00000000#32

/-- The constant signature `(1, 0)` as extended reals. -/
def sig2 (j : Fin 2) : EReal := Ideal.ofBits .f32 (sigWord j)

section
variable (s : Fin 2 → EReal) (t : (⟨2, ![8, 2]⟩ : Shape).Idx → EReal)

/-- The squared error of sample `b` on component `j`. -/
def sqErr (b : Fin 8) (j : Fin 2) : EReal := (s j - t (ix2 b j)) * (s j - t (ix2 b j))

theorem sqErr_nonneg (b : Fin 8) (j : Fin 2) : 0 ≤ sqErr s t b j := mul_self_nonneg' _

/-- The per-sample error: the mean of the two squared errors of sample `b`, as a sum from zero divided by 2. -/
def perSample (b : Fin 8) : EReal :=
  Ideal.div (Ideal.ofBits .f32 0x00000000#32 + ∑ j : Fin 2, sqErr s t b j) (Ideal.ofBits .f32 0x40000000#32)

/-- The loss as the mean over the samples of the per-sample errors. -/
def lossOfMeans : EReal :=
  Ideal.div (Ideal.ofBits .f32 0x00000000#32 + ∑ b : Fin 8, perSample s t b) (Ideal.ofBits .f32 0x41000000#32)

/-- The loss as the mean of all sixteen squared errors. -/
def lossOfAll : EReal :=
  Ideal.div (Ideal.ofBits .f32 0x00000000#32 + ∑ b : Fin 8, ∑ j : Fin 2, sqErr s t b j) (Ideal.ofBits .f32 0x41800000#32)

/-- THE LAW: the mean of the per-sample means is the mean of all the squared errors, on the extended reals, for
    every target array — the squared errors are not negative, so the factors 1/2 and 1/8 move across the sums. -/
theorem lossOfMeans_eq_lossOfAll : lossOfMeans s t = lossOfAll s t := by
  unfold lossOfMeans lossOfAll perSample
  rw [ofBits_two, ofBits_eight, ofBits_sixteen, Ideal.ofBits_zero_f32]
  rw [Ideal.div_coe (by norm_num : (8 : ℝ) ≠ 0), Ideal.div_coe (by norm_num : (16 : ℝ) ≠ 0)]
  simp only [Ideal.div_coe (by norm_num : (2 : ℝ) ≠ 0), zero_add]
  rw [← sum_mul_of_nonneg Finset.univ (fun b => ∑ j : Fin 2, sqErr s t b j)
    (fun b => Finset.sum_nonneg fun j _ => sqErr_nonneg s t b j), mul_assoc, ← EReal.coe_mul]
  norm_num

/-- The centred per-sample error over the finite-difference step. -/
def centred (loss : EReal) (b : Fin 8) : EReal :=
  Ideal.div (perSample s t b - loss) (Ideal.ofBits .f32 0x3A83126F#32)

/-- The gradient entry of sample `b` at position `l`: the centred error where the mask holds, zero elsewhere. -/
def gradAt (loss : EReal) (mask : (⟨2, ![8, 1024]⟩ : Shape).Idx → BitVec 1) (b : Fin 8) (l : Fin 1024) : EReal :=
  Scalar.select (mask (ix2 b l)) (centred s t loss b) (Ideal.ofBits .f32 0x00000000#32)

/-- The gradient array: entry `(b, l, c)` is `gradAt b l`, the same in every column `c`. -/
def grad (loss : EReal) (mask : (⟨2, ![8, 1024]⟩ : Shape).Idx → BitVec 1) :
    (⟨3, ![8, 1024, 8192]⟩ : Shape).Idx → EReal :=
  fun i => gradAt s t loss mask (i 0) (i 1)

theorem grad_ix3 (loss : EReal) (mask : (⟨2, ![8, 1024]⟩ : Shape).Idx → BitVec 1) (b : Fin 8) (l : Fin 1024) (c : Fin 8192) :
    grad s t loss mask (ix3 b l c) = gradAt s t loss mask b l := rfl

end

end Cert.SignatureLoss

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelValue.lean ====
/-
  The kernel program's two results, read at exact arithmetic index by index, are the loss as the mean of the eight
  per-sample errors and the gradient built on that loss. The loss is the host term the region finds in the first
  result's buffer; the gradient is the row values the region finds in its input window's array — sample `b`'s centred
  error where the mask holds at `(b, l)`, zero elsewhere, with a unit column axis — spread along the 8192 columns by the
  sixteen blocks. Each host operation is read at an index given by coordinates, as on the reference's side.
-/
import proofs.«150426_j65455301591738_2_alg».proof.Proof.KernelHost
import proofs.«150426_j65455301591738_2_alg».proof.Proof.KernelBlocks
import proofs.«150426_j65455301591738_2_alg».proof.Proof.LossAlgebra
import proofs.«150426_j65455301591738_2_alg».proof.Proof.LibKeepdims
import Idealize.ShloMosaic.Lib.Pipeline.Value
import Idealize.ShloMosaic.Lib.IdealHost

noncomputable section

open scoped BigOperators

namespace Cert.KernelIdeal.KernelValue

open Cert.KernelIdeal Cert.KernelIdeal.Gen Cert.KernelIdeal.HostValue Cert.KernelIdeal.Blocks Cert.SignatureLoss
open Idealize.ShloMosaic Idealize.ShloMosaic.TcCoe Idealize.SL.Sem Idealize.ShloMosaic.ValueIdx

/-- The program's literal table is the signature's two words. -/
theorem sig_word (j : Fin 2) : lit0 (S2.rowMajor (ix1 j)) = sigWord j := by
  fin_cases j <;> rfl

/-- The signature, given a unit row axis and broadcast down the samples, reads at `(b, j)` the signature's entry `j`. -/
theorem sigRows_apply (b : Fin 8) (j : Fin 2) :
    broadcastInDim S8x2 ![0, 1] bcast_S1x2_S8x2_0_1
      (broadcastInDim S1x2 ![1] bcast_S2_S1x2_1 (fun i => FloatOps.ofBits (F := Ideal) .f32 (lit0 (S2.rowMajor i)))) (ix2 b j) = sig2 j := by
  refine (broadcastInDim_apply _ _ _ (ix2 b j) (ix2 (0 : Fin 1) j) fun a => ?_).trans ?_
  · match a with
    | ⟨0, _⟩ => rfl
    | ⟨1, _⟩ => rfl
  refine (broadcastInDim_apply _ _ _ (ix2 (0 : Fin 1) j) (ix1 j) fun a => ?_).trans ?_
  · match a with
    | ⟨0, _⟩ => rfl
  · show Ideal.ofBits .f32 (lit0 (S2.rowMajor (ix1 j))) = Ideal.ofBits .f32 (sigWord j)
    rw [sig_word]

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

variable (t : (⟨S8x2, .f32⟩ : BufTy).Contents (Elt Ideal))

/-- The squared-error array at `(b, j)`. -/
theorem sqErrs_apply (b : Fin 8) (j : Fin 2) : sqErrs (F := Ideal) t (ix2 b j) = sqErr sig2 t b j := by
  unfold sqErrs sqErr
  rw [mulf_apply, subf_apply, sigRows_apply]

/-- The per-sample errors at `b`: the initial zero plus the row's two squared errors, over 2. -/
theorem perSampleTerm_apply (b : Fin 8) : perSampleTerm (F := Ideal) t (ix1 b) = perSample sig2 t b := by
  unfold perSampleTerm perSample
  show Ideal.div (Ideal.hostReduceAdd reducesTo_S8x2_S8_d1 (sqErrs t) (Ideal.ofBits .f32 0x00000000#32) (ix1 b))
      (broadcastInDim S8 ![] bcast_S_S8 (constant (F := Ideal) S_ .f32 0x40000000#32) (ix1 b)) = _
  rw [Ideal.hostReduceAdd_single reducesTo_S8x2_S8_d1 (by decide : S8x2.Reduces [1] S8), broadcastInDim_scalar_apply]
  simp only [Cert.Lib.Keepdims.lift_lastAxis, sqErrs_apply, constant_apply]
  rfl

/-- The loss at its one index: the initial zero plus the eight per-sample errors, over 8. -/
theorem lossTerm_apply (i : S_.Idx) : lossTerm (F := Ideal) t i = lossOfMeans sig2 t := by
  unfold lossTerm lossOfMeans
  show Ideal.div (Ideal.hostReduceAdd reducesTo_S8_S_d0 (perSampleTerm (F := Ideal) t) (Ideal.ofBits .f32 0x00000000#32) i)
      (Ideal.ofBits .f32 0x41000000#32) = _
  rw [Ideal.hostReduceAdd_total reducesTo_S8_S_d0 (fun b => b.elim0), sum_idx1]
  simp only [perSampleTerm_apply]

/-- The centred per-sample errors at `b`. -/
theorem centredTerm_apply (b : Fin 8) : centredTerm (F := Ideal) t (ix1 b) = centred sig2 t (lossOfMeans sig2 t) b := by
  unfold centredTerm centred
  show Ideal.div (perSampleTerm (F := Ideal) t (ix1 b) - broadcastInDim S8 ![] bcast_S_S8 (lossTerm (F := Ideal) t) (ix1 b))
      (broadcastInDim S8 ![] bcast_S_S8 (constant (F := Ideal) S_ .f32 0x3A83126F#32) (ix1 b)) = _
  rw [perSampleTerm_apply, broadcastInDim_scalar_apply, broadcastInDim_scalar_apply, lossTerm_apply]
  rfl

variable (mask : (⟨S8x1024, .i1⟩ : BufTy).Contents (Elt Ideal))

/-- The row values at `(b, l, 0)`: the select, on the mask's bit at `(b, l)`, of sample `b`'s centred error against zero. -/
theorem rowsTerm_apply (b : Fin 8) (l : Fin 1024) :
    rowsTerm (F := Ideal) mask t (ix3 b l (0 : Fin 1)) = gradAt sig2 t (lossOfMeans sig2 t) mask b l := by
  unfold rowsTerm gradAt
  refine (broadcastInDim_apply _ _ _ (ix3 b l (0 : Fin 1)) (ix2 b l) fun a => ?_).trans ?_
  · match a with
    | ⟨0, _⟩ => rfl
    | ⟨1, _⟩ => rfl
  rw [select_apply]
  have hA : broadcastInDim S8x1024 ![0, 1] bcast_S8x1_S8x1024_0_1
        (broadcastInDim S8x1 ![0] bcast_S8_S8x1_0 (centredTerm (F := Ideal) t)) (ix2 b l)
      = centred sig2 t (lossOfMeans sig2 t) b :=
    (broadcastInDim_apply _ _ _ _ (ix2 b (0 : Fin 1)) fun a => match a with
      | ⟨0, _⟩ => rfl
      | ⟨1, _⟩ => rfl).trans
    ((broadcastInDim_apply _ _ _ _ (ix1 b) fun a => match a with
      | ⟨0, _⟩ => rfl).trans (centredTerm_apply t b))
  have hB : broadcastInDim S8x1024 ![] bcast_S_S8x1024 (constant (F := Ideal) S_ .f32 0x00000000#32) (ix2 b l)
      = Ideal.ofBits .f32 0x00000000#32 := broadcastInDim_scalar_apply _ _ _
  rw [hA, hB]

/-- Output index `(b, l, c)` reads the row values at `(b, l, 0)`. -/
theorem rowOf_ix3 (b : Fin 8) (l : Fin 1024) (c : Fin 8192) : rowOf (ix3 b l c) = ix3 b l (0 : Fin 1) := by
  funext a
  match a with
  | ⟨0, _⟩ => rfl
  | ⟨1, _⟩ => rfl
  | ⟨2, _⟩ => rfl

/-- THE KERNEL PROGRAM'S LOSS is the mean of the per-sample errors. -/
theorem lossTerm_eq : lossTerm (F := Ideal) t = fun _ => lossOfMeans sig2 t := funext fun i => lossTerm_apply t i

/-- THE KERNEL PROGRAM'S GRADIENT — the row values spread along the columns — is the gradient array on that loss. -/
theorem spread_rowsTerm_eq : spread (F := Ideal) (rowsTerm (F := Ideal) mask t) = grad sig2 t (lossOfMeans sig2 t) mask := by
  funext i
  obtain ⟨b, l, c, rfl⟩ : ∃ (b : Fin 8) (l : Fin 1024) (c : Fin 8192), i = ix3 b l c := ⟨i 0, i 1, i 2, eq_ix3 i⟩
  show rowsTerm (F := Ideal) mask t (rowOf (ix3 b l c)) = _
  rw [rowOf_ix3, rowsTerm_apply]
  rfl

/-- THE KERNEL PROGRAM'S RUN, read: it terminates with the loss (the mean of the per-sample errors of the launched target
    array) in its first result's buffer, the gradient array on that loss in its second, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = (fun _ => lossOfMeans sig2 (m ((c : Thread nD τ).loc main_arg2)))
      ∧ r.2.mem ((c : Thread nD τ).loc main_v16)
          = grad sig2 (m ((c : Thread nD τ).loc main_arg2)) (lossOfMeans sig2 (m ((c : Thread nD τ).loc main_arg2))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      (h c).1.trans ((V_loss m c).trans (lossTerm_eq _)),
      (h c).2.1.trans ((congrArg (spread (F := Ideal)) (V_rows m c)).trans (spread_rowsTerm_eq _ _)),
      (h c).2.2⟩)
    (Blocks.run m ρ)

end Cert.KernelIdeal.KernelValue

end
-- ==== Proof.RefRun.lean ====
/-
  The reference program's run, read back. Its @main is a straight line of host operations — the call of the outlined
  select helper is that helper's three operations at the call site, over the call's own buffers — so every weakly
  fair execution terminates with each buffer at the fold of the operations over the launch contents. The two results,
  read off that fold, are: the LOSS, the sum from zero of all sixteen squared errors divided by 16; and the GRADIENT, the
  centred per-sample error over the step, broadcast along the positions, selected against zero by the mask and
  broadcast along the columns. Stated here as terms of the host operations over the two arguments that matter (the
  mask and the target array); no argument buffer is written.
-/
import proofs.«150426_j65455301591738_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-five operations in order, the helper's three (two broadcasts and the select) at its call. -/
abbrev ops : List (HloOp τ sig (Elt F)) :=
  [ nullary main_cst (fun i => FloatOps.ofBits .f32 (lit0 (S2.rowMajor i))),
    unary main_cst main_v0 (broadcastInDim S8x2 ![1] bcast_S2_S8x2_1 : (⟨S2, .f32⟩ : BufTy).Contents (Elt F) → (⟨S8x2, .f32⟩ : BufTy).Contents (Elt F)),
    binary main_v0 main_arg2 main_v1 (subf : (⟨S8x2, .f32⟩ : BufTy).Contents (Elt F) → (⟨S8x2, .f32⟩ : BufTy).Contents (Elt F) → (⟨S8x2, .f32⟩ : BufTy).Contents (Elt F)),
    binary main_v1 main_v1 main_v2 (mulf : (⟨S8x2, .f32⟩ : BufTy).Contents (Elt F) → (⟨S8x2, .f32⟩ : BufTy).Contents (Elt F) → (⟨S8x2, .f32⟩ : BufTy).Contents (Elt F)),
    nullary main_cst_0 (constant S_ .f32 0x00000000#32),
    binary main_v2 main_cst_0 main_v3 ((fun x v => Host.reduceAdd x v reducesTo_S8x2_S_d0_1 h_S_) : (⟨S8x2, .f32⟩ : BufTy).Contents (Elt F) → (⟨S_, .f32⟩ : BufTy).Contents (Elt F) → (⟨S_, .f32⟩ : BufTy).Contents (Elt F)),
    nullary main_cst_1 (constant S_ .f32 0x41800000#32),
    binary main_v3 main_cst_1 main_v4 (Host.divf : (⟨S_, .f32⟩ : BufTy).Contents (Elt F) → (⟨S_, .f32⟩ : BufTy).Contents (Elt F) → (⟨S_, .f32⟩ : BufTy).Contents (Elt F)),
    nullary main_cst_2 (constant S_ .f32 0x00000000#32),
    binary main_v2 main_cst_2 main_v5 ((fun x v => Host.reduceAdd x v reducesTo_S8x2_S8_d1 h_S_) : (⟨S8x2, .f32⟩ : BufTy).Contents (Elt F) → (⟨S_, .f32⟩ : BufTy).Contents (Elt F) → (⟨S8, .f32⟩ : BufTy).Contents (Elt F)),
    nullary main_cst_3 (constant S_ .f32 0x40000000#32),
    unary main_cst_3 main_v6 (broadcastInDim S8 ![] bcast_S_S8 : (⟨S_, .f32⟩ : BufTy).Contents (Elt F) → (⟨S8, .f32⟩ : BufTy).Contents (Elt F)),
    binary main_v5 main_v6 main_v7 (Host.divf : (⟨S8, .f32⟩ : BufTy).Contents (Elt F) → (⟨S8, .f32⟩ : BufTy).Contents (Elt F) → (⟨S8, .f32⟩ : BufTy).Contents (Elt F)),
    unary main_v4 main_v8 (broadcastInDim S8 ![] bcast_S_S8 : (⟨S_, .f32⟩ : BufTy).Contents (Elt F) → (⟨S8, .f32⟩ : BufTy).Contents (Elt F)),
    binary main_v7 main_v8 main_v9 (subf : (⟨S8, .f32⟩ : BufTy).Contents (Elt F) → (⟨S8, .f32⟩ : BufTy).Contents (Elt F) → (⟨S8, .f32⟩ : BufTy).Contents (Elt F)),
    nullary main_cst_4 (constant S_ .f32 0x3A83126F#32),
    unary main_cst_4 main_v10 (broadcastInDim S8 ![] bcast_S_S8 : (⟨S_, .f32⟩ : BufTy).Contents (Elt F) → (⟨S8, .f32⟩ : BufTy).Contents (Elt F)),
    binary main_v9 main_v10 main_v11 (Host.divf : (⟨S8, .f32⟩ : BufTy).Contents (Elt F) → (⟨S8, .f32⟩ : BufTy).Contents (Elt F) → (⟨S8, .f32⟩ : BufTy).Contents (Elt F)),
    unary main_arg1 main_v12 (broadcastInDim S8x1024x1 ![0, 1] bcast_S8x1024_S8x1024x1_0_1 : (⟨S8x1024, .i1⟩ : BufTy).Contents (Elt F) → (⟨S8x1024x1, .i1⟩ : BufTy).Contents (Elt F)),
    unary main_v11 main_v13 (broadcastInDim S8x1x1 ![0] bcast_S8_S8x1x1_0 : (⟨S8, .f32⟩ : BufTy).Contents (Elt F) → (⟨S8x1x1, .f32⟩ : BufTy).Contents (Elt F)),
    nullary main_cst_5 (constant S_ .f32 0x00000000#32),
    TRef.unary (.of main_v13 : TRef sig ⟨S8x1x1, .f32⟩) main_call0.v0 (broadcastInDim S8x1024x1 ![0, 1, 2] bcast_S8x1x1_S8x1024x1_0_1_2),
    TRef.unary (.of main_cst_5 : TRef sig ⟨S_, .f32⟩) main_call0.v1 (broadcastInDim S8x1024x1 ![] bcast_S_S8x1024x1),
    TRef.ternary (.of main_v12 : TRef sig ⟨S8x1024x1, .i1⟩) main_call0.v0 main_call0.v1 main_call0.v2 select,
    unary main_v14 main_v15 (broadcastInDim S8x1024x8192 ![0, 1, 2] bcast_S8x1024x1_S8x1024x8192_0_1_2 : (⟨S8x1024x1, .f32⟩ : BufTy).Contents (Elt F) → (⟨S8x1024x8192, .f32⟩ : BufTy).Contents (Elt F)) ]

set_option maxRecDepth 1024 in
/-- @main is that straight line: the helper's definition unfolded at its call, the sequencing reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., nullary_bufs_sub .., binary_bufs_sub ..,
    nullary_bufs_sub .., binary_bufs_sub .., nullary_bufs_sub .., binary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., nullary_bufs_sub .., unary_bufs_sub .., unary_bufs_sub .., ternary_bufs_sub ..,
    unary_bufs_sub ..⟩

/-- Every weakly fair execution of @main terminates, and every final state has each buffer at the fold of the
    operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The two results as terms of the arguments -/

/-- The squared errors `(s − t)²`, the signature `s` broadcast down the samples. -/
def sqErrs (t : (⟨S8x2, .f32⟩ : BufTy).Contents (Elt F)) : (⟨S8x2, .f32⟩ : BufTy).Contents (Elt F) :=
  mulf (subf (broadcastInDim S8x2 ![1] bcast_S2_S8x2_1 (fun i => FloatOps.ofBits .f32 (lit0 (S2.rowMajor i)))) t)
    (subf (broadcastInDim S8x2 ![1] bcast_S2_S8x2_1 (fun i => FloatOps.ofBits .f32 (lit0 (S2.rowMajor i)))) t)

/-- The loss: all sixteen squared errors summed from zero, over 16. -/
def lossTerm (t : (⟨S8x2, .f32⟩ : BufTy).Contents (Elt F)) : (⟨S_, .f32⟩ : BufTy).Contents (Elt F) :=
  Host.divf (Host.reduceAdd (sqErrs t) (constant S_ .f32 0x00000000#32) reducesTo_S8x2_S_d0_1 h_S_) (constant S_ .f32 0x41800000#32)

/-- The per-sample errors: each sample's two squared errors summed from zero, over 2. -/
def perSampleTerm (t : (⟨S8x2, .f32⟩ : BufTy).Contents (Elt F)) : (⟨S8, .f32⟩ : BufTy).Contents (Elt F) :=
  Host.divf (Host.reduceAdd (sqErrs t) (constant S_ .f32 0x00000000#32) reducesTo_S8x2_S8_d1 h_S_)
    (broadcastInDim S8 ![] bcast_S_S8 (constant S_ .f32 0x40000000#32))

/-- The centred per-sample errors over the step. -/
def centredTerm (t : (⟨S8x2, .f32⟩ : BufTy).Contents (Elt F)) : (⟨S8, .f32⟩ : BufTy).Contents (Elt F) :=
  Host.divf (subf (perSampleTerm t) (broadcastInDim S8 ![] bcast_S_S8 (lossTerm t)))
    (broadcastInDim S8 ![] bcast_S_S8 (constant S_ .f32 0x3A83126F#32))

/-- The gradient: the centred errors along the positions, against zero by the mask, along the columns. -/
def gradTerm (mask : (⟨S8x1024, .i1⟩ : BufTy).Contents (Elt F)) (t : (⟨S8x2, .f32⟩ : BufTy).Contents (Elt F)) :
    (⟨S8x1024x8192, .f32⟩ : BufTy).Contents (Elt F) :=
  broadcastInDim S8x1024x8192 ![0, 1, 2] bcast_S8x1024x1_S8x1024x8192_0_1_2
    (select (broadcastInDim S8x1024x1 ![0, 1] bcast_S8x1024_S8x1024x1_0_1 mask)
      (broadcastInDim S8x1024x1 ![0, 1, 2] bcast_S8x1x1_S8x1024x1_0_1_2 (broadcastInDim S8x1x1 ![0] bcast_S8_S8x1x1_0 (centredTerm t)))
      (broadcastInDim S8x1024x1 ![] bcast_S_S8x1024x1 (constant S_ .f32 0x00000000#32)))

/-- The fold at the first result's buffer is the loss term of the target array. -/
theorem after_loss (V : Valuation τ sig (Elt F)) :
    after ops V (Proc.devRef .tc main_v4) = lossTerm (V (Proc.devRef .tc main_arg2)) := by
  after_results
  rfl

/-- The fold at the second result's buffer is the gradient term of the mask and the target array. -/
theorem after_grad (V : Valuation τ sig (Elt F)) :
    after ops V (Proc.devRef .tc main_v15) = gradTerm (V (Proc.devRef .tc main_arg1)) (V (Proc.devRef .tc main_arg2)) := by
  after_results
  rfl

/-- No operation writes an argument's buffer. -/
theorem after_arg0 (V : Valuation τ sig (Elt F)) : after ops V (Proc.devRef .tc main_arg0) = V (Proc.devRef .tc main_arg0) := by
  after_results
theorem after_arg1 (V : Valuation τ sig (Elt F)) : after ops V (Proc.devRef .tc main_arg1) = V (Proc.devRef .tc main_arg1) := by
  after_results
theorem after_arg2 (V : Valuation τ sig (Elt F)) : after ops V (Proc.devRef .tc main_arg2) = V (Proc.devRef .tc main_arg2) := by
  after_results

/-- THE REFERENCE'S RUN: it terminates with the loss term and the gradient term of the launched arguments in its two
    result buffers, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = lossTerm (m ((c.tc : Thread nD τ).loc main_arg2))
      ∧ r.2.mem ((c.tc : Thread nD τ).loc main_v15) = gradTerm (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (after_loss _), (h c main_v15).trans (after_grad _),
      (h c main_arg0).trans (after_arg0 _), (h c main_arg1).trans (after_arg1 _), (h c main_arg2).trans (after_arg2 _)⟩)
    (run_ops m ρ)

end Cert.ReferenceIdeal.RefRun

end
-- ==== Proof.RefValue.lean ====
/-
  The reference's two result terms, read at exact arithmetic index by index, are the loss as the mean of all sixteen
  squared errors and the gradient built on that loss. Each host operation is read at an index given by coordinates: a
  broadcast reads its operand at the coordinates its axes name (zero on the operand's unit axes), a sum over an axis from
  an initial value is the initial value plus the sum over that axis's coordinates, a sum over every axis the initial
  value plus the double sum, a select the choice on the mask's bit.
-/
import proofs.«150426_j65455301591738_2_alg».proof.Proof.RefRun
import proofs.«150426_j65455301591738_2_alg».proof.Proof.LossAlgebra
import proofs.«150426_j65455301591738_2_alg».proof.Proof.LibKeepdims
import Idealize.ShloMosaic.Lib.Pipeline.Value
import Idealize.ShloMosaic.Lib.IdealHost

noncomputable section

open scoped BigOperators

namespace Cert.ReferenceIdeal.RefValue

open Cert.ReferenceIdeal Cert.ReferenceIdeal.Gen Cert.ReferenceIdeal.RefRun Cert.SignatureLoss
open Idealize.ShloMosaic Idealize.ShloMosaic.ValueIdx

/-- The program's literal table is the signature's two words. -/
theorem sig_word (j : Fin 2) : lit0 (S2.rowMajor (ix1 j)) = sigWord j := by
  fin_cases j <;> rfl

/-- The signature broadcast down the samples reads, at `(b, j)`, the signature's entry `j`. -/
theorem sigRows_apply (b : Fin 8) (j : Fin 2) :
    broadcastInDim S8x2 ![1] bcast_S2_S8x2_1 (fun i => FloatOps.ofBits (F := Ideal) .f32 (lit0 (S2.rowMajor i))) (ix2 b j) = sig2 j := by
  refine (broadcastInDim_apply _ _ _ (ix2 b j) (ix1 j) fun a => ?_).trans ?_
  · match a with
    | ⟨0, _⟩ => rfl
  · show Ideal.ofBits .f32 (lit0 (S2.rowMajor (ix1 j))) = Ideal.ofBits .f32 (sigWord j)
    rw [sig_word]

variable (t : (⟨S8x2, .f32⟩ : BufTy).Contents (Elt Ideal))

/-- The squared-error array at `(b, j)`. -/
theorem sqErrs_apply (b : Fin 8) (j : Fin 2) : sqErrs (F := Ideal) t (ix2 b j) = sqErr sig2 t b j := by
  unfold sqErrs sqErr
  rw [mulf_apply, subf_apply, sigRows_apply]

/-- The per-sample errors at `b`: the initial zero plus the row's two squared errors, over 2. -/
theorem perSampleTerm_apply (b : Fin 8) : perSampleTerm (F := Ideal) t (ix1 b) = perSample sig2 t b := by
  unfold perSampleTerm perSample
  show Ideal.div (Ideal.hostReduceAdd reducesTo_S8x2_S8_d1 (sqErrs t) (Ideal.ofBits .f32 0x00000000#32) (ix1 b))
      (broadcastInDim S8 ![] bcast_S_S8 (constant (F := Ideal) S_ .f32 0x40000000#32) (ix1 b)) = _
  rw [Ideal.hostReduceAdd_single reducesTo_S8x2_S8_d1 (by decide : S8x2.Reduces [1] S8), broadcastInDim_scalar_apply]
  simp only [Cert.Lib.Keepdims.lift_lastAxis, sqErrs_apply, constant_apply]
  rfl

/-- The loss at its one index: the initial zero plus all sixteen squared errors, over 16. -/
theorem lossTerm_apply (i : S_.Idx) : lossTerm (F := Ideal) t i = lossOfAll sig2 t := by
  unfold lossTerm lossOfAll
  show Ideal.div (Ideal.hostReduceAdd reducesTo_S8x2_S_d0_1 (sqErrs t) (Ideal.ofBits .f32 0x00000000#32) i)
      (Ideal.ofBits .f32 0x41800000#32) = _
  rw [Ideal.hostReduceAdd_total reducesTo_S8x2_S_d0_1 (fun b => b.elim0), sum_idx2]
  simp only [sqErrs_apply]

/-- The centred per-sample errors at `b`. -/
theorem centredTerm_apply (b : Fin 8) : centredTerm (F := Ideal) t (ix1 b) = centred sig2 t (lossOfAll sig2 t) b := by
  unfold centredTerm centred
  show Ideal.div (perSampleTerm (F := Ideal) t (ix1 b) - broadcastInDim S8 ![] bcast_S_S8 (lossTerm (F := Ideal) t) (ix1 b))
      (broadcastInDim S8 ![] bcast_S_S8 (constant (F := Ideal) S_ .f32 0x3A83126F#32) (ix1 b)) = _
  rw [perSampleTerm_apply, broadcastInDim_scalar_apply, broadcastInDim_scalar_apply, lossTerm_apply]
  rfl

variable (mask : (⟨S8x1024, .i1⟩ : BufTy).Contents (Elt Ideal))

/-- The gradient term at `(b, l, c)`: the select, on the mask's bit at `(b, l)`, of sample `b`'s centred error against
    zero — the column `c` is read nowhere. -/
theorem gradTerm_apply (b : Fin 8) (l : Fin 1024) (c : Fin 8192) :
    gradTerm (F := Ideal) mask t (ix3 b l c) = gradAt sig2 t (lossOfAll sig2 t) mask b l := by
  unfold gradTerm gradAt
  refine (broadcastInDim_apply _ _ _ (ix3 b l c) (ix3 b l (0 : Fin 1)) fun a => ?_).trans ?_
  · match a with
    | ⟨0, _⟩ => rfl
    | ⟨1, _⟩ => rfl
    | ⟨2, _⟩ => rfl
  rw [select_apply]
  have hM : broadcastInDim S8x1024x1 ![0, 1] bcast_S8x1024_S8x1024x1_0_1 mask (ix3 b l (0 : Fin 1)) = mask (ix2 b l) :=
    broadcastInDim_apply _ _ _ _ (ix2 b l) fun a => match a with
      | ⟨0, _⟩ => rfl
      | ⟨1, _⟩ => rfl
  have hA : broadcastInDim S8x1024x1 ![0, 1, 2] bcast_S8x1x1_S8x1024x1_0_1_2
        (broadcastInDim S8x1x1 ![0] bcast_S8_S8x1x1_0 (centredTerm (F := Ideal) t)) (ix3 b l (0 : Fin 1))
      = centred sig2 t (lossOfAll sig2 t) b :=
    (broadcastInDim_apply _ _ _ _ (ix3 b (0 : Fin 1) (0 : Fin 1)) fun a => match a with
      | ⟨0, _⟩ => rfl
      | ⟨1, _⟩ => rfl
      | ⟨2, _⟩ => rfl).trans
    ((broadcastInDim_apply _ _ _ _ (ix1 b) fun a => match a with
      | ⟨0, _⟩ => rfl).trans (centredTerm_apply t b))
  have hB : broadcastInDim S8x1024x1 ![] bcast_S_S8x1024x1 (constant (F := Ideal) S_ .f32 0x00000000#32) (ix3 b l (0 : Fin 1))
      = Ideal.ofBits .f32 0x00000000#32 := broadcastInDim_scalar_apply _ _ _
  rw [hM, hA, hB]

/-- THE REFERENCE'S LOSS is the mean of all sixteen squared errors. -/
theorem lossTerm_eq : lossTerm (F := Ideal) t = fun _ => lossOfAll sig2 t := funext fun i => lossTerm_apply t i

/-- THE REFERENCE'S GRADIENT is the gradient array on that loss. -/
theorem gradTerm_eq : gradTerm (F := Ideal) mask t = grad sig2 t (lossOfAll sig2 t) mask := by
  funext i
  obtain ⟨b, l, c, rfl⟩ : ∃ (b : Fin 8) (l : Fin 1024) (c : Fin 8192), i = ix3 b l c := ⟨i 0, i 1, i 2, eq_ix3 i⟩
  rw [gradTerm_apply]
  rfl

end Cert.ReferenceIdeal.RefValue

end
-- ==== Proof.lean ====
/-
  The certificate of a broadcast-write kernel against its jnp reference, at exact arithmetic.

  Both programs compute, from a target array `t : [8, 2]` and the constant signature `s = (1, 0)`, the squared errors
  `e b j = (s j − t b j)²`, the per-sample errors `p b = (0 + Σ_j e b j) / 2`, a scalar loss, and the gradient array
  `[8, 1024, 8192]` whose entry `(b, l, c)` is `(p b − loss) / ε` where the mask holds at `(b, l)` and `0` elsewhere.
  They differ in two places. The kernel program takes the loss as the mean of the per-sample errors,
  `(0 + Σ_b p b) / 8`, the reference as the mean of all sixteen squared errors, `(0 + Σ_b Σ_j e b j) / 16`: one extended
  real, because squares are not negative and on such terms a fixed factor distributes over a sum (Proof/LossAlgebra.lean)
  — no finiteness of the inputs is used. And the kernel program selects by the mask on `[8, 1024]`, appends a unit
  column axis and lets a pipelined region of sixteen points copy each block of 512 row values along the 8192 columns,
  where the reference selects on `[8, 1024, 1]` and broadcasts along the columns on the host: index by index the same
  select (Proof/KernelBlocks.lean for the blocks, Proof/KernelValue.lean and Proof/RefValue.lean for the two readings).

  The three frames: the two kernel programs' are their generated frame certificates; the reference has no region, and
  its frame is its run (Proof/RefRun.lean) with the results dropped. The idealization rewrote no operation, so
  `preserves` states nothing.
-/
import proofs.«150426_j65455301591738_2_alg».proof.Defs
import proofs.«150426_j65455301591738_2_alg».proof.Proof.Gen.Kernel
import proofs.«150426_j65455301591738_2_alg».proof.Proof.Gen.Kernel.Skeleton
import proofs.«150426_j65455301591738_2_alg».proof.Proof.Gen.Kernel.Launch
import proofs.«150426_j65455301591738_2_alg».proof.Proof.Gen.Kernel.Points
import proofs.«150426_j65455301591738_2_alg».proof.Proof.Gen.Kernel.Frame
import proofs.«150426_j65455301591738_2_alg».proof.Proof.Gen.KernelIdeal
import proofs.«150426_j65455301591738_2_alg».proof.Proof.Gen.KernelIdeal.Skeleton
import proofs.«150426_j65455301591738_2_alg».proof.Proof.Gen.KernelIdeal.Launch
import proofs.«150426_j65455301591738_2_alg».proof.Proof.Gen.KernelIdeal.Points
import proofs.«150426_j65455301591738_2_alg».proof.Proof.Gen.KernelIdeal.Frame
import proofs.«150426_j65455301591738_2_alg».proof.Proof.Gen.KernelIdeal.Value
import proofs.«150426_j65455301591738_2_alg».proof.Proof.Gen.ReferenceIdeal
import proofs.«150426_j65455301591738_2_alg».proof.Proof.Gen.Pre_finite_inputs
import proofs.«150426_j65455301591738_2_alg».proof.Proof.KernelValue
import proofs.«150426_j65455301591738_2_alg».proof.Proof.RefValue
import Idealize.ShloMosaic.Adequacy
import Idealize.ShloMosaic.Init

noncomputable section

namespace Cert.Proof

open Idealize.ShloMosaic Idealize.SL.Sem

/-- The word-level kernel program's frame: its generated frame certificate. -/
theorem frame_kernel : Cert.frame_Kernel := fun m ρ _ => Cert.Kernel.Gen.frame m ρ

/-- The idealized kernel program's frame: its generated frame certificate. -/
theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories agreeing on the arguments both programs end with the loss as the mean of the per-sample errors and
    the gradient array on it: the kernel program by its run read back, the reference by its own, whose loss — the mean
    of all sixteen squared errors — is that same extended real. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).2.2, Cert.ReferenceIdeal.RefValue.lossTerm_eq, ← Cert.SignatureLoss.lossOfMeans_eq_lossOfAll]
    rfl
  · rw [(hagree c).2.1, (hagree c).2.2, Cert.ReferenceIdeal.RefValue.gradTerm_eq,
      ← Cert.SignatureLoss.lossOfMeans_eq_lossOfAll]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
